-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x8 : Shape := ⟨2, ![4096, 8]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : IVec S4096x8 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S4096x8 : Shape := ⟨2, ![4096, 8]⟩
abbrev S_ : Shape := ⟨0, ![]⟩
abbrev S4096x8x1 : Shape := ⟨3, ![4096, 8, 1]⟩
abbrev S1 : Shape := ⟨1, ![1]⟩
abbrev S1x1x1 : Shape := ⟨3, ![1, 1, 1]⟩
abbrev S16x8x128 : Shape := ⟨3, ![16, 8, 128]⟩
abbrev S256x4096 : Shape := ⟨2, ![256, 4096]⟩
abbrev S256x8 : Shape := ⟨2, ![256, 8]⟩
abbrev S1x8x128 : Shape := ⟨3, ![1, 8, 128]⟩
abbrev S256x1 : Shape := ⟨2, ![256, 1]⟩
abbrev S256 : Shape := ⟨1, ![256]⟩
abbrev S1x1 : Shape := ⟨2, ![1, 1]⟩

abbrev nBuf : Space → Nat
  | .hbm => 32
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x8, .i32⟩
  | .hbm, ⟨3, _⟩ => ⟨S_, .i32⟩
  | .hbm, ⟨4, _⟩ => ⟨S4096x8, .i32⟩
  | .hbm, ⟨5, _⟩ => ⟨S4096x8, .i1⟩
  | .hbm, ⟨6, _⟩ => ⟨S_, .i32⟩
  | .hbm, ⟨7, _⟩ => ⟨S4096x8, .i32⟩
  | .hbm, ⟨8, _⟩ => ⟨S4096x8, .i32⟩
  | .hbm, ⟨9, _⟩ => ⟨S4096x8, .i32⟩
  | .hbm, ⟨10, _⟩ => ⟨S4096x8x1, .i32⟩
  | .hbm, ⟨11, _⟩ => ⟨S1, .i32⟩
  | .hbm, ⟨12, _⟩ => ⟨S_, .i32⟩
  | .hbm, ⟨13, _⟩ => ⟨S4096x8x1, .i32⟩
  | .hbm, ⟨14, _⟩ => ⟨S4096x8x1, .i1⟩
  | .hbm, ⟨15, _⟩ => ⟨S1x1x1, .i32⟩
  | .hbm, ⟨16, _⟩ => ⟨S4096x8x1, .i32⟩
  | .hbm, ⟨17, _⟩ => ⟨S4096x8x1, .i1⟩
  | .hbm, ⟨18, _⟩ => ⟨S4096x8x1, .i1⟩
  | .hbm, ⟨19, _⟩ => ⟨S_, .i1⟩
  | .hbm, ⟨20, _⟩ => ⟨S4096x8, .i1⟩
  | .hbm, ⟨21, _⟩ => ⟨S4096x8, .f32⟩
  | .hbm, ⟨22, _⟩ => ⟨S_, .f32⟩
  | .hbm, ⟨23, _⟩ => ⟨S4096x8, .f32⟩
  | .hbm, ⟨24, _⟩ => ⟨S4096x8, .f32⟩
  | .hbm, ⟨25, _⟩ => ⟨S16x8x128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x8, .f32⟩
  | .local _ .vmem, ⟨5, _⟩ => ⟨S256x8, .f32⟩
  | .local _ .vmem, ⟨6, _⟩ => ⟨S1x8x128, .f32⟩
  | .local _ .vmem, ⟨7, _⟩ => ⟨S1x8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v0 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_cst_0 : Ref sig .tc := ⟨.hbm, 28, rfl⟩
abbrev main_v3 : Ref sig .tc := ⟨.hbm, 29, rfl⟩
abbrev main_cst_1 : Ref sig .tc := ⟨.hbm, 30, rfl⟩
abbrev main_v4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096x8 : S_.BroadcastsInDim S4096x8 (![] : Fin 0 → Fin S4096x8.rank)
  shapeCasts_S4096x8_S4096x8x1 : S4096x8.ShapeCasts S4096x8x1
  bcast_S_S4096x8x1 : S_.BroadcastsInDim S4096x8x1 (![] : Fin 0 → Fin S4096x8x1.rank)
  bcast_S1_S1x1x1_2 : S1.BroadcastsInDim S1x1x1 (![2] : Fin 1 → Fin S1x1x1.rank)
  bcast_S1x1x1_S4096x8x1_0_1_2 : S1x1x1.BroadcastsInDim S4096x8x1 (![0, 1, 2] : Fin 3 → Fin S4096x8x1.rank)
  reducesTo_S4096x8x1_S4096x8_d2 : S4096x8x1.ReducesTo [2] S4096x8
  h_S_ : 0 < S_.numel
  inb_S256x4096_S256x4096_0_0 : ∀ a, (![0, 0] : Fin 2 → Nat) a + S256x4096.size a ≤ S256x4096.size a
  h_S256x4096 : 0 < S256x4096.numel
  inb_S256x8_S256x8_0_0 : ∀ a, (![0, 0] : Fin 2 → Nat) a + S256x8.size a ≤ S256x8.size a
  h_S256x8 : 0 < S256x8.numel
  shapeCasts_S256x8_S256x8 : S256x8.ShapeCasts S256x8
  slices_S256x8_o0_0_S256x1 : S256x8.Slices ![0, 0] S256x1
  broadcasts_S256x1_S256x4096 : S256x1.Broadcasts S256x4096
  slices_S256x8_o0_1_S256x1 : S256x8.Slices ![0, 1] S256x1
  slices_S256x8_o0_2_S256x1 : S256x8.Slices ![0, 2] S256x1
  slices_S256x8_o0_3_S256x1 : S256x8.Slices ![0, 3] S256x1
  slices_S256x8_o0_4_S256x1 : S256x8.Slices ![0, 4] S256x1
  slices_S256x8_o0_5_S256x1 : S256x8.Slices ![0, 5] S256x1
  slices_S256x8_o0_6_S256x1 : S256x8.Slices ![0, 6] S256x1
  slices_S256x8_o0_7_S256x1 : S256x8.Slices ![0, 7] S256x1
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  reducesTo_S16x8x128_S_d0_1_2 : S16x8x128.ReducesTo [0, 1, 2] S_
  gather_S4096x4096_S4096x8x1_S4096x8_n_1_0_0_1_2_11_wf : GatherDims.WF S4096x4096 S4096x8x1 S4096x8 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8.size a ≤ S4096x8.size a
  hwx0_2 : ∀ i : grid0.Coords, EltTy.bits .f32 = 32 ∨ (Rect.block (s := S4096x8) S256x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S16x8x128.size a
  hwx0_3 : ∀ i : grid0.Coords, EltTy.bits .f32 = 32 ∨ (Rect.block (s := S16x8x128) S1x8x128.size (cc0_transform_3 i) (hinb0_3 i)).WholeWords (EltTy.packing .f32)

variable [Facts₀]

def gather_S4096x4096_S4096x8x1_S4096x8_n_1_0_0_1_2_11 : GatherDims S4096x4096 S4096x8x1 S4096x8 where
  offsetDims := []
  collapsedSliceDims := [1]
  operandBatchingDims := [0]
  startIndicesBatchingDims := [0]
  startIndexMap := [1]
  indexVectorDim := 2
  sliceSizes := ![1, 1]
  wf := gather_S4096x4096_S4096x8x1_S4096x8_n_1_0_0_1_2_11_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x8 : Shape := ⟨2, ![4096, 8]⟩
abbrev S_ : Shape := ⟨0, ![]⟩
abbrev S4096x8x1 : Shape := ⟨3, ![4096, 8, 1]⟩
abbrev S1 : Shape := ⟨1, ![1]⟩
abbrev S1x1x1 : Shape := ⟨3, ![1, 1, 1]⟩
abbrev S4096x1x4096 : Shape := ⟨3, ![4096, 1, 4096]⟩
abbrev S4096x8x4096 : Shape := ⟨3, ![4096, 8, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x8, .i32⟩
  | .hbm, ⟨3, _⟩ => ⟨S_, .i32⟩
  | .hbm, ⟨4, _⟩ => ⟨S4096x8, .i32⟩
  | .hbm, ⟨5, _⟩ => ⟨S4096x8, .i1⟩
  | .hbm, ⟨6, _⟩ => ⟨S_, .i32⟩
  | .hbm, ⟨7, _⟩ => ⟨S4096x8, .i32⟩
  | .hbm, ⟨8, _⟩ => ⟨S4096x8, .i32⟩
  | .hbm, ⟨9, _⟩ => ⟨S4096x8, .i32⟩
  | .hbm, ⟨10, _⟩ => ⟨S4096x8x1, .i32⟩
  | .hbm, ⟨11, _⟩ => ⟨S1, .i32⟩
  | .hbm, ⟨12, _⟩ => ⟨S_, .i32⟩
  | .hbm, ⟨13, _⟩ => ⟨S4096x8x1, .i32⟩
  | .hbm, ⟨14, _⟩ => ⟨S4096x8x1, .i1⟩
  | .hbm, ⟨15, _⟩ => ⟨S1x1x1, .i32⟩
  | .hbm, ⟨16, _⟩ => ⟨S4096x8x1, .i32⟩
  | .hbm, ⟨17, _⟩ => ⟨S4096x8x1, .i1⟩
  | .hbm, ⟨18, _⟩ => ⟨S4096x8x1, .i1⟩
  | .hbm, ⟨19, _⟩ => ⟨S_, .i1⟩
  | .hbm, ⟨20, _⟩ => ⟨S4096x8, .i1⟩
  | .hbm, ⟨21, _⟩ => ⟨S4096x8, .f32⟩
  | .hbm, ⟨22, _⟩ => ⟨S_, .f32⟩
  | .hbm, ⟨23, _⟩ => ⟨S4096x8, .f32⟩
  | .hbm, ⟨24, _⟩ => ⟨S4096x8, .f32⟩
  | .hbm, ⟨25, _⟩ => ⟨S4096x1x4096, .f32⟩
  | .hbm, ⟨26, _⟩ => ⟨S_, .f32⟩
  | .hbm, ⟨27, _⟩ => ⟨S4096x1x4096, .f32⟩
  | .hbm, ⟨28, _⟩ => ⟨S4096x1x4096, .f32⟩
  | .hbm, ⟨29, _⟩ => ⟨S4096x8x1, .f32⟩
  | .hbm, ⟨30, _⟩ => ⟨S4096x8x4096, .f32⟩
  | .hbm, ⟨31, _⟩ => ⟨S4096x8x4096, .f32⟩
  | .hbm, ⟨32, _⟩ => ⟨S4096x8x4096, .f32⟩
  | .hbm, ⟨33, _⟩ => ⟨S_, .f32⟩
  | .hbm, ⟨34, _⟩ => ⟨S4096x8x4096, .f32⟩
  | .hbm, ⟨35, _⟩ => ⟨S4096x8x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x1x4096, .f32⟩
  | .hbm, ⟨40, _⟩ => ⟨S4096x8x4096, .f32⟩
  | .hbm, ⟨41, _⟩ => ⟨S4096x8x4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v0 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_0 : Ref sig .tc := ⟨.hbm, 33, rfl⟩
abbrev main_v8 : Ref sig .tc := ⟨.hbm, 34, rfl⟩
abbrev main_v9 : Ref sig .tc := ⟨.hbm, 35, rfl⟩
abbrev main_cst_1 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_cst_3 : Ref sig .tc := ⟨.hbm, 44, rfl⟩
abbrev main_v16 : Ref sig .tc := ⟨.hbm, 45, rfl⟩

abbrev nD : Nat := 1
abbrev τ : Topo := Topo.v7x

variable {F : FTy → Type} [FloatOps F]

class Facts₀ : Prop where
  bcast_S_S4096x8 : S_.BroadcastsInDim S4096x8 (![] : Fin 0 → Fin S4096x8.rank)
  shapeCasts_S4096x8_S4096x8x1 : S4096x8.ShapeCasts S4096x8x1
  bcast_S_S4096x8x1 : S_.BroadcastsInDim S4096x8x1 (![] : Fin 0 → Fin S4096x8x1.rank)
  bcast_S1_S1x1x1_2 : S1.BroadcastsInDim S1x1x1 (![2] : Fin 1 → Fin S1x1x1.rank)
  bcast_S1x1x1_S4096x8x1_0_1_2 : S1x1x1.BroadcastsInDim S4096x8x1 (![0, 1, 2] : Fin 3 → Fin S4096x8x1.rank)
  reducesTo_S4096x8x1_S4096x8_d2 : S4096x8x1.ReducesTo [2] S4096x8
  h_S_ : 0 < S_.numel
  bcast_S4096x4096_S4096x1x4096_0_2 : S4096x4096.BroadcastsInDim S4096x1x4096 (![0, 2] : Fin 2 → Fin S4096x1x4096.rank)
  bcast_S_S4096x1x4096 : S_.BroadcastsInDim S4096x1x4096 (![] : Fin 0 → Fin S4096x1x4096.rank)
  bcast_S4096x8_S4096x8x1_0_1 : S4096x8.BroadcastsInDim S4096x8x1 (![0, 1] : Fin 2 → Fin S4096x8x1.rank)
  bcast_S4096x1x4096_S4096x8x4096_0_1_2 : S4096x1x4096.BroadcastsInDim S4096x8x4096 (![0, 1, 2] : Fin 3 → Fin S4096x8x4096.rank)
  bcast_S4096x8x1_S4096x8x4096_0_1_2 : S4096x8x1.BroadcastsInDim S4096x8x4096 (![0, 1, 2] : Fin 3 → Fin S4096x8x4096.rank)
  bcast_S_S4096x8x4096 : S_.BroadcastsInDim S4096x8x4096 (![] : Fin 0 → Fin S4096x8x4096.rank)
  bcast_S_S4096x4096 : S_.BroadcastsInDim S4096x4096 (![] : Fin 0 → Fin S4096x4096.rank)
  reducesTo_S4096x8x4096_S_d0_1_2 : S4096x8x4096.ReducesTo [0, 1, 2] S_
  gather_S4096x4096_S4096x8x1_S4096x8_n_1_0_0_1_2_11_wf : GatherDims.WF S4096x4096 S4096x8x1 S4096x8 [] [1] [0] [1] [0] 2 ![1, 1]

variable [Facts₀]

def gather_S4096x4096_S4096x8x1_S4096x8_n_1_0_0_1_2_11 : GatherDims S4096x4096 S4096x8x1 S4096x8 where
  offsetDims := []
  collapsedSliceDims := [1]
  operandBatchingDims := [0]
  startIndicesBatchingDims := [0]
  startIndexMap := [1]
  indexVectorDim := 2
  sliceSizes := ![1, 1]
  wf := gather_S4096x4096_S4096x8x1_S4096x8_n_1_0_0_1_2_11_wf

class Facts : Prop extends Facts₀ where

variable [Facts]
-- ==== Proof.MarginSpec.lean ====
/-
  The margin loss as plain mathematics over the extended reals.

  For scores X i d, labels Y i d and anchor scores P i k (row i, column d, anchor k), one term of the loss is
  (1 - Y i d) * max 0 ((1/2 + X i d) - P i k).  The second factor is never negative, whatever its arguments are, and
  that alone carries the one law needed here: a factor distributes over a sum of NONNEGATIVE extended reals, finite or
  not.  So weighting the eight violations of an entry after adding them (as a row block does) or before (as the triple
  sum does) gives the same extended real, with no finiteness assumed of anything.  The rest is reordering of finite sums
  in a commutative monoid, the 4096 rows read as 16 blocks of 256, and a total repeated over a tile of 1024 cells and
  divided by 1024 again.
-/
import Idealize.ShloMosaic.PureOps.Ideal
import Idealize.ShloMosaic.PureOps.Ideal.Laws

noncomputable section

namespace Cert.Margin

open Idealize.ShloMosaic

/-- The violation of the margin by a score x against an anchor score p: max 0 ((1/2 + x) - p). -/
def hinge (x p : EReal) : EReal :=
  max (Ideal.ofBits .f32 0x00000000#32) ((Ideal.ofBits .f32 0x3F000000#32 + x) - p)

/-- It is a maximum with zero, so it is never negative. -/
theorem hinge_nonneg (x p : EReal) : 0 ≤ hinge x p := by
  unfold hinge
  rw [Ideal.ofBits_zero_f32]
  exact le_max_left _ _

/-- The weight of an entry with label y: 1 - y. -/
def weight (y : EReal) : EReal := Ideal.ofBits .f32 0x3F800000#32 - y

/-- Eight nonnegative terms added to zero one after the other and then multiplied by c are the sum of the eight
    products: c distributes over each partial sum because both of its parts are nonnegative. -/
theorem mul_acc_eight (c : EReal) (h : Fin 8 → EReal) (hh : ∀ k, 0 ≤ h k) :
    c * ((((((((Ideal.ofBits .f32 0x00000000#32 + h 0) + h 1) + h 2) + h 3) + h 4) + h 5) + h 6) + h 7)
      = ∑ k : Fin 8, c * h k := by
  have n1 := add_nonneg (hh 0) (hh 1)
  have n2 := add_nonneg n1 (hh 2)
  have n3 := add_nonneg n2 (hh 3)
  have n4 := add_nonneg n3 (hh 4)
  have n5 := add_nonneg n4 (hh 5)
  have n6 := add_nonneg n5 (hh 6)
  rw [Ideal.ofBits_zero_f32, zero_add, Fin.sum_univ_eight,
    EReal.left_distrib_of_nonneg n6 (hh 7), EReal.left_distrib_of_nonneg n5 (hh 6),
    EReal.left_distrib_of_nonneg n4 (hh 5), EReal.left_distrib_of_nonneg n3 (hh 4),
    EReal.left_distrib_of_nonneg n2 (hh 3), EReal.left_distrib_of_nonneg n1 (hh 2),
    EReal.left_distrib_of_nonneg (hh 0) (hh 1)]

/-! ## Rows in blocks -/

/-- Row r of block t, among the 4096 rows cut into 16 blocks of 256. -/
def rowOf (t : Fin 16) (r : Fin 256) : Fin 4096 := ⟨t.val * 256 + r.val, by omega⟩

/-- Every row is exactly one row of exactly one block. -/
def rowEquiv : Fin 16 × Fin 256 ≃ Fin 4096 where
  toFun p := rowOf p.1 p.2
  invFun i := (⟨i.val / 256, by omega⟩, ⟨i.val % 256, by omega⟩)
  left_inv := fun ⟨t, r⟩ => Prod.ext
    (Fin.ext (by show (t.val * 256 + r.val) / 256 = t.val; omega))
    (Fin.ext (by show (t.val * 256 + r.val) % 256 = r.val; omega))
  right_inv := fun i => Fin.ext (by show i.val / 256 * 256 + i.val % 256 = i.val; omega)

/-- So a sum over the blocks of the sums over their rows is the sum over all rows. -/
theorem sum_blocks_rows {M : Type*} [AddCommMonoid M] (f : Fin 4096 → M) :
    ∑ t : Fin 16, ∑ r : Fin 256, f (rowOf t r) = ∑ i : Fin 4096, f i :=
  (Fintype.sum_prod_type' fun t r => f (rowOf t r)).symm.trans (Equiv.sum_comp rowEquiv f)

/-! ## The two arrangements of the loss -/

variable (X Y : Fin 4096 → Fin 4096 → EReal) (P : Fin 4096 → Fin 8 → EReal)

/-- The loss as the sum over every (row, anchor, column) triple of the weighted violation. -/
def lossSum : EReal :=
  ∑ i : Fin 4096, ∑ k : Fin 8, ∑ d : Fin 4096, weight (Y i d) * hinge (X i d) (P i k)

/-- One entry as a row block computes it, from its label y, its score x and its row's eight anchor scores p: the
    eight violations accumulated from zero one after the other, then weighted. -/
def accTerm (y x : EReal) (p : Fin 8 → EReal) : EReal :=
  weight y * ((((((((Ideal.ofBits .f32 0x00000000#32 + hinge x (p 0)) + hinge x (p 1)) + hinge x (p 2))
    + hinge x (p 3)) + hinge x (p 4)) + hinge x (p 5)) + hinge x (p 6)) + hinge x (p 7))

/-- The entry at (row i, column d). -/
def accEntry (i d : Fin 4096) : EReal := accTerm (Y i d) (X i d) (P i)

/-- The total of row block t: its 256 rows, each row's 4096 entries. -/
def blockSum (t : Fin 16) : EReal := ∑ r : Fin 256, ∑ d : Fin 4096, accEntry X Y P (rowOf t r) d

/-- An accumulated entry is the sum over the anchors of the weighted violations. -/
theorem accEntry_eq (i d : Fin 4096) :
    accEntry X Y P i d = ∑ k : Fin 8, weight (Y i d) * hinge (X i d) (P i k) :=
  mul_acc_eight (weight (Y i d)) (fun k => hinge (X i d) (P i k)) (fun k => hinge_nonneg _ _)

/-- The sixteen block totals add up to the loss: the rows regrouped, and in each row the sums over columns and
    anchors exchanged. -/
theorem sum_blockSum : ∑ t : Fin 16, blockSum X Y P t = lossSum X Y P := by
  unfold blockSum lossSum
  rw [sum_blocks_rows fun i => ∑ d : Fin 4096, accEntry X Y P i d]
  refine Finset.sum_congr rfl fun i _ => ?_
  simp only [accEntry_eq]
  exact Finset.sum_comm

/-! ## A total spread over a tile and divided back -/

/-- The word 0x44800000 is the float 1024. -/
theorem ofBits_1024 : Ideal.ofBits .f32 0x44800000#32 = ((1024 : ℝ) : EReal) := by
  simp [Ideal.ofBits, Ideal.ieee, -EReal.coe_mul]
  norm_num

/-- A quantity repeated over an 8 by 128 tile is 1024 times itself. -/
theorem tile_nsmul (x : EReal) : (8 : ℕ) • ((128 : ℕ) • x) = ((1024 : ℝ) : EReal) * x := by
  rw [smul_smul, EReal.nsmul_eq_mul]
  norm_num
  rfl

/-- Each block total written into every cell of its 8 by 128 tile, all cells added to zero, and the sum divided by
    1024, is the sum of the block totals: on the extended reals (1024 * s) * (1/1024) = s for every s. -/
theorem tile_total (S : Fin 16 → EReal) :
    Ideal.div (Ideal.ofBits .f32 0x00000000#32 + ∑ t : Fin 16, ∑ _a : Fin 8, ∑ _b : Fin 128, S t)
      (Ideal.ofBits .f32 0x44800000#32) = ∑ t : Fin 16, S t := by
  rw [Ideal.ofBits_zero_f32, zero_add, ofBits_1024, Ideal.div_coe (by norm_num)]
  simp only [Finset.sum_const, Finset.card_univ, Fintype.card_fin]
  rw [← Finset.smul_sum, ← Finset.smul_sum, tile_nsmul, mul_comm ((1024 : ℝ) : EReal) _, mul_assoc,
    ← EReal.coe_mul, show (1024 : ℝ) * (1 / 1024) = 1 by norm_num, EReal.coe_one, mul_one]

/-! ## The two programs' last steps, brought to one form -/

/-- THE LOSS: the sum over all triples divided by the count, whose word both programs share. -/
def loss : EReal := Ideal.div (lossSum X Y P) (Ideal.ofBits .f32 0x4CFF8000#32)

/-- Adding the triples to zero first changes nothing. -/
theorem zero_add_lossSum_div :
    Ideal.div (Ideal.ofBits .f32 0x00000000#32 + lossSum X Y P) (Ideal.ofBits .f32 0x4CFF8000#32) = loss X Y P := by
  unfold loss
  rw [Ideal.ofBits_zero_f32, zero_add]

/-- The block totals spread over their tiles, all cells added to zero, divided by 1024 and then by the count, are the
    loss as well. -/
theorem tiles_div_div :
    Ideal.div
      (Ideal.div (Ideal.ofBits .f32 0x00000000#32 + ∑ t : Fin 16, ∑ _a : Fin 8, ∑ _b : Fin 128, blockSum X Y P t)
        (Ideal.ofBits .f32 0x44800000#32))
      (Ideal.ofBits .f32 0x4CFF8000#32) = loss X Y P := by
  unfold loss
  rw [tile_total, sum_blockSum]

end Cert.Margin

end
-- ==== Proof.RefRun.lean ====
/-
  The reference program's run, read back as one value.

  The reference first forms the anchor scores: the position indices, a negative one wrapped by adding the row length,
  are looked up in the score rows, and an entry whose wrapped index still falls outside the row is replaced by a fixed
  word.  Then, for every (row, anchor, column) triple, it takes the violation max 0 ((1/2 + score) - anchor), weights
  it by 1 - label, adds all the products to zero and divides by a constant.  Below, each of these stages is a definition
  of its own, the program is the list of its operations in order, and the run theorem says: every weakly fair execution
  terminates with the result at the last stage applied to the argument arrays, the arguments unchanged.
-/
import proofs.«170382_j59287728554367_1_alg».proof.Proof.Gen.ReferenceIdeal
import Idealize.ShloMosaic.Lib.StableHlo.Run

noncomputable section

namespace Cert.ReferenceIdeal.Loss

open Cert.ReferenceIdeal Cert.ReferenceIdeal.Gen Idealize.ShloMosaic Idealize.ShloMosaic.TcCoe Idealize.SL.Sem
  Idealize.ShloMosaic.StableHlo

variable {F : FTy → Type} [FloatOps F]

/-! ## The stages -/

/-- The position indices with a negative one wrapped around: ids + 4096 where ids < 0, ids elsewhere. -/
def wrapIdx (ids : (⟨S4096x8, .i32⟩ : BufTy).Contents (Elt F)) : (⟨S4096x8, .i32⟩ : BufTy).Contents (Elt F) :=
  select (cmpi .slt ids (broadcastInDim S4096x8 ![] bcast_S_S4096x8 (constantI S_ 32 0#32)))
    (addi ids (broadcastInDim S4096x8 ![] bcast_S_S4096x8 (constantI S_ 32 4096#32))) ids

/-- The same indices as the start indices of the lookup, one index vector of length one per (row, anchor). -/
def startIdx (ids : (⟨S4096x8, .i32⟩ : BufTy).Contents (Elt F)) : (⟨S4096x8x1, .i32⟩ : BufTy).Contents (Elt F) :=
  shapeCast _ (wrapIdx (F := F) ids) shapeCasts_S4096x8_S4096x8x1

/-- Whether a wrapped index lies inside its row: 0 ≤ index ≤ 4095. -/
def inRange (ids : (⟨S4096x8, .i32⟩ : BufTy).Contents (Elt F)) : (⟨S4096x8, .i1⟩ : BufTy).Contents (Elt F) :=
  Host.reduce IntOp.andi
    (andi (cmpi .sge (startIdx (F := F) ids) (broadcastInDim S4096x8x1 ![] bcast_S_S4096x8x1 (constantI S_ 32 0#32)))
      (cmpi .sle (startIdx (F := F) ids) (broadcastInDim S4096x8x1 ![0, 1, 2] bcast_S1x1x1_S4096x8x1_0_1_2
        (broadcastInDim S1x1x1 ![2] bcast_S1_S1x1x1_2 (constantI S1 32 4095#32)))))
    (constantI S_ 1 1#1) reducesTo_S4096x8x1_S4096x8_d2 h_S_

/-- The anchor scores: the score looked up at each wrapped index where it is in range, a fixed word elsewhere. -/
def anchors (x : (⟨S4096x4096, .f32⟩ : BufTy).Contents (Elt F)) (ids : (⟨S4096x8, .i32⟩ : BufTy).Contents (Elt F)) :
    (⟨S4096x8, .f32⟩ : BufTy).Contents (Elt F) :=
  select (inRange (F := F) ids)
    (Host.gather gather_S4096x4096_S4096x8x1_S4096x8_n_1_0_0_1_2_11 x (startIdx (F := F) ids))
    (broadcastInDim S4096x8 ![] bcast_S_S4096x8 (constant S_ .f32 0x7FC00000#32))

/-- The violations over (row, anchor, column): max 0 ((1/2 + score) - anchor), both operands spread over the box. -/
def violation (x : (⟨S4096x4096, .f32⟩ : BufTy).Contents (Elt F)) (p : (⟨S4096x8, .f32⟩ : BufTy).Contents (Elt F)) :
    (⟨S4096x8x4096, .f32⟩ : BufTy).Contents (Elt F) :=
  maximumf (broadcastInDim S4096x8x4096 ![] bcast_S_S4096x8x4096 (constant S_ .f32 0x00000000#32))
    (subf
      (broadcastInDim S4096x8x4096 ![0, 1, 2] bcast_S4096x1x4096_S4096x8x4096_0_1_2
        (addf (broadcastInDim S4096x1x4096 ![] bcast_S_S4096x1x4096 (constant S_ .f32 0x3F000000#32))
          (broadcastInDim S4096x1x4096 ![0, 2] bcast_S4096x4096_S4096x1x4096_0_2 x)))
      (broadcastInDim S4096x8x4096 ![0, 1, 2] bcast_S4096x8x1_S4096x8x4096_0_1_2
        (broadcastInDim S4096x8x1 ![0, 1] bcast_S4096x8_S4096x8x1_0_1 p)))

/-- The violations weighted by 1 - label, the weight spread over the anchors. -/
def weighted (x y : (⟨S4096x4096, .f32⟩ : BufTy).Contents (Elt F)) (p : (⟨S4096x8, .f32⟩ : BufTy).Contents (Elt F)) :
    (⟨S4096x8x4096, .f32⟩ : BufTy).Contents (Elt F) :=
  mulf
    (broadcastInDim S4096x8x4096 ![0, 1, 2] bcast_S4096x1x4096_S4096x8x4096_0_1_2
      (broadcastInDim S4096x1x4096 ![0, 2] bcast_S4096x4096_S4096x1x4096_0_2
        (subf (broadcastInDim S4096x4096 ![] bcast_S_S4096x4096 (constant S_ .f32 0x3F800000#32)) y)))
    (violation (F := F) x p)

/-- The result: all the weighted violations added to zero, divided by the count. -/
def refLoss (x y : (⟨S4096x4096, .f32⟩ : BufTy).Contents (Elt F)) (p : (⟨S4096x8, .f32⟩ : BufTy).Contents (Elt F)) :
    (⟨S_, .f32⟩ : BufTy).Contents (Elt F) :=
  Host.divf
    (Host.reduceAdd (weighted (F := F) x y p) (constant S_ .f32 0x00000000#32) reducesTo_S4096x8x4096_S_d0_1_2 h_S_)
    (constant S_ .f32 0x4CFF8000#32)

/-! ## The program as a list of operations -/

/-- The 43 operations of the program in order: the 22 of the anchor lookup, written at its call's buffers, then the
    21 of the loss. -/
abbrev ops : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S4096x8, .i32⟩) main_call0_v0)
      (broadcastInDim S4096x8 ![] bcast_S_S4096x8),
    TRef.binary (TRef.of (T := ⟨S4096x8, .i32⟩) main_arg2) (TRef.of (T := ⟨S4096x8, .i32⟩) main_call0_v0)
      (TRef.of (T := ⟨S4096x8, .i1⟩) main_call0_v1) (cmpi .slt),
    TRef.nullary (TRef.of (T := ⟨S_, .i32⟩) main_call0_c_0) (constantI S_ 32 4096#32),
    TRef.unary (TRef.of (T := ⟨S_, .i32⟩) main_call0_c_0) (TRef.of (T := ⟨S4096x8, .i32⟩) main_call0_v2)
      (broadcastInDim S4096x8 ![] bcast_S_S4096x8),
    TRef.binary (TRef.of (T := ⟨S4096x8, .i32⟩) main_arg2) (TRef.of (T := ⟨S4096x8, .i32⟩) main_call0_v2)
      (TRef.of (T := ⟨S4096x8, .i32⟩) main_call0_v3) addi,
    TRef.ternary (TRef.of (T := ⟨S4096x8, .i1⟩) main_call0_v1) (TRef.of (T := ⟨S4096x8, .i32⟩) main_call0_v3)
      (TRef.of (T := ⟨S4096x8, .i32⟩) main_arg2) (TRef.of (T := ⟨S4096x8, .i32⟩) main_call0_v4) select,
    TRef.reshape (TRef.of (T := ⟨S4096x8, .i32⟩) main_call0_v4) (TRef.of (T := ⟨S4096x8x1, .i32⟩) main_call0_v5) rfl
      shapeCasts_S4096x8_S4096x8x1,
    TRef.nullary (TRef.of (T := ⟨S1, .i32⟩) main_call0_c_1) (constantI S1 32 4095#32),
    TRef.nullary (TRef.of (T := ⟨S_, .i32⟩) main_call0_c_2) (constantI S_ 32 0#32),
    TRef.unary (TRef.of (T := ⟨S_, .i32⟩) main_call0_c_2) (TRef.of (T := ⟨S4096x8x1, .i32⟩) main_call0_v6)
      (broadcastInDim S4096x8x1 ![] bcast_S_S4096x8x1),
    TRef.binary (TRef.of (T := ⟨S4096x8x1, .i32⟩) main_call0_v5) (TRef.of (T := ⟨S4096x8x1, .i32⟩) main_call0_v6)
      (TRef.of (T := ⟨S4096x8x1, .i1⟩) main_call0_v7) (cmpi .sge),
    TRef.unary (TRef.of (T := ⟨S1, .i32⟩) main_call0_c_1) (TRef.of (T := ⟨S1x1x1, .i32⟩) main_call0_v8)
      (broadcastInDim S1x1x1 ![2] bcast_S1_S1x1x1_2),
    TRef.unary (TRef.of (T := ⟨S1x1x1, .i32⟩) main_call0_v8) (TRef.of (T := ⟨S4096x8x1, .i32⟩) main_call0_v9)
      (broadcastInDim S4096x8x1 ![0, 1, 2] bcast_S1x1x1_S4096x8x1_0_1_2),
    TRef.binary (TRef.of (T := ⟨S4096x8x1, .i32⟩) main_call0_v5) (TRef.of (T := ⟨S4096x8x1, .i32⟩) main_call0_v9)
      (TRef.of (T := ⟨S4096x8x1, .i1⟩) main_call0_v10) (cmpi .sle),
    TRef.binary (TRef.of (T := ⟨S4096x8x1, .i1⟩) main_call0_v7) (TRef.of (T := ⟨S4096x8x1, .i1⟩) main_call0_v10)
      (TRef.of (T := ⟨S4096x8x1, .i1⟩) main_call0_v11) andi,
    TRef.nullary (TRef.of (T := ⟨S_, .i1⟩) main_call0_c_3) (constantI S_ 1 1#1),
    TRef.binary (TRef.of (T := ⟨S4096x8x1, .i1⟩) main_call0_v11) (TRef.of (T := ⟨S_, .i1⟩) main_call0_c_3)
      (TRef.of (T := ⟨S4096x8, .i1⟩) main_call0_v12)
      (fun x v => Host.reduce IntOp.andi x v reducesTo_S4096x8x1_S4096x8_d2 h_S_),
    TRef.binary (TRef.of (T := ⟨S4096x4096, .f32⟩) main_arg0) (TRef.of (T := ⟨S4096x8x1, .i32⟩) main_call0_v5)
      (TRef.of (T := ⟨S4096x8, .f32⟩) main_call0_v13)
      (fun x i => Host.gather gather_S4096x4096_S4096x8x1_S4096x8_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S4096x8, .f32⟩) main_call0_v14)
      (broadcastInDim S4096x8 ![] bcast_S_S4096x8),
    TRef.ternary (TRef.of (T := ⟨S4096x8, .i1⟩) main_call0_v12) (TRef.of (T := ⟨S4096x8, .f32⟩) main_call0_v13)
      (TRef.of (T := ⟨S4096x8, .f32⟩) main_call0_v14) (TRef.of (T := ⟨S4096x8, .f32⟩) main_v0) select,
    unary main_arg0 main_v1 (broadcastInDim S4096x1x4096 ![0, 2] bcast_S4096x4096_S4096x1x4096_0_2 :
      (⟨S4096x4096, .f32⟩ : BufTy).Contents (Elt F) → (⟨S4096x1x4096, .f32⟩ : BufTy).Contents (Elt F)),
    nullary main_cst (constant S_ .f32 0x3F000000#32),
    unary main_cst main_v2 (broadcastInDim S4096x1x4096 ![] bcast_S_S4096x1x4096 :
      (⟨S_, .f32⟩ : BufTy).Contents (Elt F) → (⟨S4096x1x4096, .f32⟩ : BufTy).Contents (Elt F)),
    binary main_v2 main_v1 main_v3 (addf : (⟨S4096x1x4096, .f32⟩ : BufTy).Contents (Elt F) →
      (⟨S4096x1x4096, .f32⟩ : BufTy).Contents (Elt F) → (⟨S4096x1x4096, .f32⟩ : BufTy).Contents (Elt F)),
    unary main_v0 main_v4 (broadcastInDim S4096x8x1 ![0, 1] bcast_S4096x8_S4096x8x1_0_1 :
      (⟨S4096x8, .f32⟩ : BufTy).Contents (Elt F) → (⟨S4096x8x1, .f32⟩ : BufTy).Contents (Elt F)),
    unary main_v3 main_v5 (broadcastInDim S4096x8x4096 ![0, 1, 2] bcast_S4096x1x4096_S4096x8x4096_0_1_2 :
      (⟨S4096x1x4096, .f32⟩ : BufTy).Contents (Elt F) → (⟨S4096x8x4096, .f32⟩ : BufTy).Contents (Elt F)),
    unary main_v4 main_v6 (broadcastInDim S4096x8x4096 ![0, 1, 2] bcast_S4096x8x1_S4096x8x4096_0_1_2 :
      (⟨S4096x8x1, .f32⟩ : BufTy).Contents (Elt F) → (⟨S4096x8x4096, .f32⟩ : BufTy).Contents (Elt F)),
    binary main_v5 main_v6 main_v7 (subf : (⟨S4096x8x4096, .f32⟩ : BufTy).Contents (Elt F) →
      (⟨S4096x8x4096, .f32⟩ : BufTy).Contents (Elt F) → (⟨S4096x8x4096, .f32⟩ : BufTy).Contents (Elt F)),
    nullary main_cst_0 (constant S_ .f32 0x00000000#32),
    unary main_cst_0 main_v8 (broadcastInDim S4096x8x4096 ![] bcast_S_S4096x8x4096 :
      (⟨S_, .f32⟩ : BufTy).Contents (Elt F) → (⟨S4096x8x4096, .f32⟩ : BufTy).Contents (Elt F)),
    binary main_v8 main_v7 main_v9 (maximumf : (⟨S4096x8x4096, .f32⟩ : BufTy).Contents (Elt F) →
      (⟨S4096x8x4096, .f32⟩ : BufTy).Contents (Elt F) → (⟨S4096x8x4096, .f32⟩ : BufTy).Contents (Elt F)),
    nullary main_cst_1 (constant S_ .f32 0x3F800000#32),
    unary main_cst_1 main_v10 (broadcastInDim S4096x4096 ![] bcast_S_S4096x4096 :
      (⟨S_, .f32⟩ : BufTy).Contents (Elt F) → (⟨S4096x4096, .f32⟩ : BufTy).Contents (Elt F)),
    binary main_v10 main_arg1 main_v11 (subf : (⟨S4096x4096, .f32⟩ : BufTy).Contents (Elt F) →
      (⟨S4096x4096, .f32⟩ : BufTy).Contents (Elt F) → (⟨S4096x4096, .f32⟩ : BufTy).Contents (Elt F)),
    unary main_v11 main_v12 (broadcastInDim S4096x1x4096 ![0, 2] bcast_S4096x4096_S4096x1x4096_0_2 :
      (⟨S4096x4096, .f32⟩ : BufTy).Contents (Elt F) → (⟨S4096x1x4096, .f32⟩ : BufTy).Contents (Elt F)),
    unary main_v12 main_v13 (broadcastInDim S4096x8x4096 ![0, 1, 2] bcast_S4096x1x4096_S4096x8x4096_0_1_2 :
      (⟨S4096x1x4096, .f32⟩ : BufTy).Contents (Elt F) → (⟨S4096x8x4096, .f32⟩ : BufTy).Contents (Elt F)),
    binary main_v13 main_v9 main_v14 (mulf : (⟨S4096x8x4096, .f32⟩ : BufTy).Contents (Elt F) →
      (⟨S4096x8x4096, .f32⟩ : BufTy).Contents (Elt F) → (⟨S4096x8x4096, .f32⟩ : BufTy).Contents (Elt F)),
    nullary main_cst_2 (constant S_ .f32 0x00000000#32),
    binary main_v14 main_cst_2 main_v15 ((fun x v => Host.reduceAdd x v reducesTo_S4096x8x4096_S_d0_1_2 h_S_) :
      (⟨S4096x8x4096, .f32⟩ : BufTy).Contents (Elt F) → (⟨S_, .f32⟩ : BufTy).Contents (Elt F) →
        (⟨S_, .f32⟩ : BufTy).Contents (Elt F)),
    nullary main_cst_3 (constant S_ .f32 0x4CFF8000#32),
    binary main_v15 main_cst_3 main_v16 (Host.divf : (⟨S_, .f32⟩ : BufTy).Contents (Elt F) →
      (⟨S_, .f32⟩ : BufTy).Contents (Elt F) → (⟨S_, .f32⟩ : BufTy).Contents (Elt F)) ]

set_option maxRecDepth 16384 in
/-- The program is the sequence of these operations: the call of the lookup unfolds to its lines. -/
theorem main_eq (c : Dev nD) : main (F := F) c = seq ops := rfl

/-- Nothing in the signature is scoped: no buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
/-- Every operation touches buffers of the core only. -/
theorem ops_sub : (ops : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., reshape_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., nullary_bufs_sub ..,
    unary_bufs_sub .., ternary_bufs_sub ..,
    unary_bufs_sub .., nullary_bufs_sub .., unary_bufs_sub .., binary_bufs_sub .., unary_bufs_sub ..,
    unary_bufs_sub .., unary_bufs_sub .., binary_bufs_sub .., nullary_bufs_sub .., unary_bufs_sub ..,
    binary_bufs_sub .., nullary_bufs_sub .., unary_bufs_sub .., binary_bufs_sub .., unary_bufs_sub ..,
    unary_bufs_sub .., binary_bufs_sub .., nullary_bufs_sub .., binary_bufs_sub .., nullary_bufs_sub ..,
    binary_bufs_sub ..⟩

/-! ## The run -/

set_option maxRecDepth 200000 in
set_option maxHeartbeats 2000000 in
/-- From any memory with zero counters, every weakly fair execution of the program terminates with the result buffer
    at the loss of the argument arrays (the anchors looked up from the scores and the positions) and the arguments
    unchanged.  The result's stage unfolds, definition by definition, to the operations' composed term. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16)
          = refLoss (F := F) (m ((c.tc : Thread nD τ).loc main_arg0)) (m ((c.tc : Thread nD τ).loc main_arg1))
              (anchors (F := F) (m ((c.tc : Thread nD τ).loc main_arg0)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v16).trans (by after_results_simp <;> rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.Loss

end
-- ==== Proof.LibIndexSums.lean ====
/-
  Finite sums over the index set of a small array, taken coordinate by coordinate, and the inclusion of the reals in the
  extended reals carried through a finite sum.  A rank-1 index set is its coordinate's range and a rank-3 index set is the
  product of its three coordinates' ranges, so a sum over either is an iterated sum over the coordinates (the rank-2 case
  is the library's `sum_idx2`).
-/
import Idealize.ShloMosaic.PureOps.Ideal
import Idealize.ShloMosaic.Lib.ValueIdx

noncomputable section

namespace Cert.IndexSums

open Idealize.ShloMosaic Idealize.ShloMosaic.ValueIdx

/-- A sum over a rank-1 index set is the sum over its one coordinate. -/
theorem sum_idx1 {M : Type*} [AddCommMonoid M] {n : Nat} (f : (⟨1, ![n]⟩ : Shape).Idx → M) :
    ∑ q, f q = ∑ b : Fin n, f (ix1 b) := by
  let eqv : (⟨1, ![n]⟩ : Shape).Idx ≃ Fin n :=
    ⟨fun q => q 0, fun b => ix1 b, fun q => (eq_ix1 q).symm, fun _ => rfl⟩
  exact (Equiv.sum_comp eqv.symm f).symm

/-- A rank-3 index set is the product of its three coordinate ranges … -/
def idxEquiv3 {n0 n1 n2 : Nat} : (⟨3, ![n0, n1, n2]⟩ : Shape).Idx ≃ Fin n0 × Fin n1 × Fin n2 where
  toFun q := (q 0, q 1, q 2)
  invFun p := ix3 p.1 p.2.1 p.2.2
  left_inv q := (eq_ix3 q).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ q, f q = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The inclusion of the reals in the extended reals commutes with a finite sum. -/
theorem coe_sum {ι : Type*} (s : Finset ι) (f : ι → ℝ) :
    ((∑ x ∈ s, f x : ℝ) : EReal) = ∑ x ∈ s, ((f x : ℝ) : EReal) := by
  classical
  induction s using Finset.induction_on with
  | empty => rw [Finset.sum_empty, Finset.sum_empty, EReal.coe_zero]
  | insert x s hx ih => rw [Finset.sum_insert hx, Finset.sum_insert hx, EReal.coe_add, ih]

end Cert.IndexSums

end
-- ==== Proof.RefRead.lean ====
/-
  The reference's value read index by index: it is the loss of the specification.

  Every operation between the argument arrays and the big sum only moves or combines single entries, so the weighted
  violation at (row i, anchor k, column d) is read off directly: the score at (i, d), the anchor at (i, k), the label
  at (i, d).  The host sum over the whole box is the triple sum over its three coordinates added to the zero it
  starts from, and the division is the division of the extended reals.
-/
import proofs.«170382_j59287728554367_1_alg».proof.Proof.RefRun
import proofs.«170382_j59287728554367_1_alg».proof.Proof.MarginSpec
import proofs.«170382_j59287728554367_1_alg».proof.Proof.LibIndexSums
import Idealize.ShloMosaic.Lib.Pipeline.Value
import Idealize.ShloMosaic.Lib.ValueIdx
import Idealize.ShloMosaic.PureOps.Ideal.Laws

noncomputable section

namespace Cert.ReferenceIdeal.Loss

open Cert.ReferenceIdeal Cert.ReferenceIdeal.Gen Idealize.ShloMosaic Idealize.ShloMosaic.ValueIdx

/-! ## The broadcasts, each read at an index given by its coordinates -/

/-- A scalar spread over any shape reads the scalar everywhere. -/
theorem splat_apply {t : Shape} {α : Type} (h : S_.BroadcastsInDim t (![] : Fin 0 → Fin t.rank)) (x : S_.Idx → α)
    (j : t.Idx) : broadcastInDim t ![] h x j = x ix0 :=
  broadcastInDim_apply _ h x j ix0 (fun a => a.elim0)

/-- A [rows, columns] array given a middle axis of length one reads, at (i, _, d), its entry (i, d). -/
theorem rows_apply {α : Type} (x : S4096x4096.Idx → α) (i : Fin 4096) (u : Fin 1) (d : Fin 4096) :
    broadcastInDim S4096x1x4096 ![0, 2] bcast_S4096x4096_S4096x1x4096_0_2 x (ix3 i u d) = x (ix2 i d) :=
  broadcastInDim_apply _ bcast_S4096x4096_S4096x1x4096_0_2 x _ (ix2 i d) (fun a => match a with
    | ⟨0, _⟩ => by show i.val = if (4096 : Nat) = 1 then 0 else i.val; rw [if_neg (by decide)]
    | ⟨1, _⟩ => by show d.val = if (4096 : Nat) = 1 then 0 else d.val; rw [if_neg (by decide)])

/-- Spread along the middle axis over the eight anchors, it reads at (i, k, d) what it held at (i, 0, d). -/
theorem overAnchors_apply {α : Type} (x : S4096x1x4096.Idx → α) (i : Fin 4096) (k : Fin 8) (d : Fin 4096) :
    broadcastInDim S4096x8x4096 ![0, 1, 2] bcast_S4096x1x4096_S4096x8x4096_0_1_2 x (ix3 i k d)
      = x (ix3 i (0 : Fin 1) d) :=
  broadcastInDim_apply _ bcast_S4096x1x4096_S4096x8x4096_0_1_2 x _ (ix3 i (0 : Fin 1) d) (fun a => match a with
    | ⟨0, _⟩ => by show i.val = if (4096 : Nat) = 1 then 0 else i.val; rw [if_neg (by decide)]
    | ⟨1, _⟩ => by show 0 = if (1 : Nat) = 1 then 0 else k.val; rw [if_pos rfl]
    | ⟨2, _⟩ => by show d.val = if (4096 : Nat) = 1 then 0 else d.val; rw [if_neg (by decide)])

/-- A [rows, anchors] array given a last axis of length one reads, at (i, k, _), its entry (i, k). -/
theorem anchorCol_apply {α : Type} (p : S4096x8.Idx → α) (i : Fin 4096) (k : Fin 8) (u : Fin 1) :
    broadcastInDim S4096x8x1 ![0, 1] bcast_S4096x8_S4096x8x1_0_1 p (ix3 i k u) = p (ix2 i k) :=
  broadcastInDim_apply _ bcast_S4096x8_S4096x8x1_0_1 p _ (ix2 i k) (fun a => match a with
    | ⟨0, _⟩ => by show i.val = if (4096 : Nat) = 1 then 0 else i.val; rw [if_neg (by decide)]
    | ⟨1, _⟩ => by show k.val = if (8 : Nat) = 1 then 0 else k.val; rw [if_neg (by decide)])

/-- Spread along the last axis over the columns, it reads at (i, k, d) what it held at (i, k, 0). -/
theorem overColumns_apply {α : Type} (x : S4096x8x1.Idx → α) (i : Fin 4096) (k : Fin 8) (d : Fin 4096) :
    broadcastInDim S4096x8x4096 ![0, 1, 2] bcast_S4096x8x1_S4096x8x4096_0_1_2 x (ix3 i k d)
      = x (ix3 i k (0 : Fin 1)) :=
  broadcastInDim_apply _ bcast_S4096x8x1_S4096x8x4096_0_1_2 x _ (ix3 i k (0 : Fin 1)) (fun a => match a with
    | ⟨0, _⟩ => by show i.val = if (4096 : Nat) = 1 then 0 else i.val; rw [if_neg (by decide)]
    | ⟨1, _⟩ => by show k.val = if (8 : Nat) = 1 then 0 else k.val; rw [if_neg (by decide)]
    | ⟨2, _⟩ => by show 0 = if (1 : Nat) = 1 then 0 else d.val; rw [if_pos rfl])

/-! ## The stages at an index -/

/-- The violation at (row i, anchor k, column d) is the violation of the score at (i, d) against the anchor (i, k). -/
theorem violation_apply (x : FVec Ideal S4096x4096 .f32) (p : FVec Ideal S4096x8 .f32)
    (i : Fin 4096) (k : Fin 8) (d : Fin 4096) :
    violation (F := Ideal) x p (ix3 i k d) = Cert.Margin.hinge (x (ix2 i d)) (p (ix2 i k)) := by
  unfold violation Cert.Margin.hinge
  rw [maximumf_apply, subf_apply, splat_apply, overAnchors_apply, addf_apply, splat_apply, rows_apply,
    overColumns_apply, anchorCol_apply]
  rfl

/-- The weighted violation there: the weight of the label at (i, d) times that violation. -/
theorem weighted_apply (x y : FVec Ideal S4096x4096 .f32) (p : FVec Ideal S4096x8 .f32)
    (i : Fin 4096) (k : Fin 8) (d : Fin 4096) :
    weighted (F := Ideal) x y p (ix3 i k d)
      = Cert.Margin.weight (y (ix2 i d)) * Cert.Margin.hinge (x (ix2 i d)) (p (ix2 i k)) := by
  unfold weighted Cert.Margin.weight
  rw [mulf_apply, violation_apply, overAnchors_apply, rows_apply, subf_apply, splat_apply]
  rfl

/-- The reference's result, at its one index: zero plus the loss, divided by the count's word. -/
theorem refLoss_apply (x y : FVec Ideal S4096x4096 .f32) (p : FVec Ideal S4096x8 .f32) (j : S_.Idx) :
    refLoss (F := Ideal) x y p j
      = Ideal.div (Ideal.ofBits .f32 0x00000000#32
          + Cert.Margin.lossSum (fun i d => x (ix2 i d)) (fun i d => y (ix2 i d)) (fun i k => p (ix2 i k)))
        (Ideal.ofBits .f32 0x4CFF8000#32) := by
  unfold refLoss Cert.Margin.lossSum
  show Ideal.div (Host.reduceAdd (weighted (F := Ideal) x y p) (constant (F := Ideal) S_ .f32 0x00000000#32)
    reducesTo_S4096x8x4096_S_d0_1_2 h_S_ j) (constant (F := Ideal) S_ .f32 0x4CFF8000#32 j) = _
  simp only [Host.reduceAdd, Ideal.hostReduceAdd_def]
  rw [Ideal.hostReduceAdd_total reducesTo_S4096x8x4096_S_d0_1_2 (fun b => b.elim0), Cert.IndexSums.sum_idx3]
  simp only [weighted_apply]
  rfl

end Cert.ReferenceIdeal.Loss

end
-- ==== Proof.LibColumnLayout.lean ====
/-
  Two layout operations that only move indices, read at an index given by its coordinates: a vector cast to a
  one-column matrix, and a one-column matrix broadcast along its rows.  Together they carry a per-row quantity
  (a row maximum, a row sum, its reciprocal) kept as a `[a, 1]` column back onto every entry of its row.
-/
import Idealize.ShloMosaic.Lib.ValueIdx
import Idealize.ShloMosaic.Lib.Pipeline.Value

noncomputable section

namespace Cert.ColumnLayout

open Idealize.ShloMosaic Idealize.ShloMosaic.ValueIdx

/-- A vector cast to a one-column matrix reads, at `(i, 0)`, the vector at `i`. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A one-column matrix broadcast along its rows reads, at `(i, j)`, the column at `(i, 0)`. -/
theorem broadcastTo_a1_ab_apply {a b : ℕ} {α : Type} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      have := i.isLt
      split <;> omega
    | ⟨1, _⟩ => by
      show 0 = if (1 : ℕ) = 1 then 0 else j.val
      rw [if_pos rfl])

end Cert.ColumnLayout

end
-- ==== Proof.KerPayload.lean ====
/-
  What one row block leaves in its output tile, read entry by entry.

  The body loads a block of 256 score rows, the same block of label rows and the block's 256 by 8 anchor scores.  For
  each entry (r, d) it accumulates, from zero and anchor after anchor, the violations of the score against the row's
  eight anchors, weights the total by 1 - label, sums each row over its 4096 columns, sums the 256 row sums, and writes
  that one number into every cell of an 8 by 128 tile.  So every cell of the tile holds the double sum over (r, d) of
  the accumulated and weighted entry of the specification.
-/
import proofs.«170382_j59287728554367_1_alg».proof.Proof.Gen.KernelIdeal.Skeleton
import proofs.«170382_j59287728554367_1_alg».proof.Proof.MarginSpec
import proofs.«170382_j59287728554367_1_alg».proof.Proof.LibColumnLayout
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-! ## The two lane sums and the tile -/

/-- The sum along the columns, at row r: the sum over the 4096 columns of the entries of that row. -/
theorem rowSum_apply (v : FVec Ideal S256x4096 .f32) (hφ : FKind.Formats .f32)
    (hacc : (0x00000000#32 : BitVec 32) = 0x00000000#32) (r : Fin 256) :
    multiReduction .add [1] S256 v 0x00000000#32 reduces_S256x4096_S256 hφ hacc (ix1 r)
      = ∑ d : Fin 4096, v (ix2 r d) :=
  (Ideal.multiReduction_add_single v 0x00000000#32 reduces_S256x4096_S256 hφ hacc (ix1 r)).trans
    (Finset.sum_congr rfl fun d _ => congrArg v (funext fun a => Fin.ext (by
      match a with
      | ⟨0, _⟩ => rfl
      | ⟨1, _⟩ => rfl)))

/-- The sum along the rows of a one-column matrix, at its one index: the sum over the 256 rows. -/
theorem colSum_apply (v : FVec Ideal S256x1 .f32) (hφ : FKind.Formats .f32)
    (hacc : (0x00000000#32 : BitVec 32) = 0x00000000#32) :
    multiReduction .add [0] S1 v 0x00000000#32 reduces_S256x1_S1 hφ hacc (ix1 (0 : Fin 1))
      = ∑ r : Fin 256, v (ix2 r (0 : Fin 1)) :=
  (Ideal.multiReduction_add_single v 0x00000000#32 reduces_S256x1_S1 hφ hacc (ix1 (0 : Fin 1))).trans
    (Finset.sum_congr rfl fun r _ => congrArg v (funext fun a => Fin.ext (by
      match a with
      | ⟨0, _⟩ => rfl
      | ⟨1, _⟩ => rfl)))

/-- One number, given two more axes of length one and spread over the 8 by 128 tile, is read in every cell. -/
theorem tile_apply (w : FVec Ideal S1 .f32) (j : S1x8x128.Idx) :
    broadcastTo S1x8x128
      (shapeCast S1x1x1 (shapeCast S1x1x1 (shapeCast S1x1 w shapeCasts_S1_S1x1) shapeCasts_S1x1_S1x1x1)
        shapeCasts_S1x1x1_S1x1x1) broadcasts_S1x1x1_S1x8x128 j = w (ix1 (0 : Fin 1)) := by
  refine (broadcastTo_apply _ broadcasts_S1x1x1_S1x8x128 j (ix3 (0 : Fin 1) (0 : Fin 1) (0 : Fin 1))
    (fun a => ?_)).trans ?_
  · match a with
    | ⟨0, _⟩ => exact (if_pos rfl).symm
    | ⟨1, _⟩ => exact (if_pos rfl).symm
    | ⟨2, _⟩ => exact (if_pos rfl).symm
  · rw [shapeCast_self]
    refine (shapeCast_apply _ shapeCasts_S1x1_S1x1x1 _ (ix2 (0 : Fin 1) (0 : Fin 1)) ?_).trans
      (shapeCast_apply w shapeCasts_S1_S1x1 _ (ix1 (0 : Fin 1)) ?_)
    · rw [Shape.rowMajor_val_two, Shape.rowMajor_val_three]; rfl
    · rw [Shape.rowMajor_val_one, Shape.rowMajor_val_two]; rfl

/-! ## One violation term of the body -/

/-- Column k of the anchor block, spread along the rows' columns: at (r, d) it is the anchor (r, k). -/
theorem anchorSpread_apply (v3 : FVec Ideal S256x8 .f32) (k : Fin 8) (off : Fin 2 → Nat) (hoff : off = ![0, k.val])
    (h : S256x8.Slices off S256x1) (r : Fin 256) (d : Fin 4096) :
    broadcastTo S256x4096 (extractStridedSlice S256x1 off v3 h) broadcasts_S256x1_S256x4096 (ix2 r d)
      = v3 (ix2 r k) := by
  subst hoff
  rw [Cert.ColumnLayout.broadcastTo_a1_ab_apply]
  exact extractStridedSlice_apply _ v3 h _ (ix2 r k) (fun a => match a with
    | ⟨0, _⟩ => by show r.val = 0 + r.val; omega
    | ⟨1, _⟩ => by show k.val = k.val + 0; omega)

/-- The body's term for anchor k at (r, d): the violation of the score (r, d) against the anchor (r, k). -/
theorem violation_apply (v0 : FVec Ideal S256x4096 .f32) (v3 : FVec Ideal S256x8 .f32) (k : Fin 8)
    (off : Fin 2 → Nat) (hoff : off = ![0, k.val]) (h : S256x8.Slices off S256x1) (r : Fin 256) (d : Fin 4096) :
    maximumf (broadcast S256x4096 (Scalar.ofBits (F := Ideal) .f32 0x00000000#32))
      (subf (addf (broadcast S256x4096 (Scalar.ofBits (F := Ideal) .f32 0x3F000000#32)) v0)
        (broadcastTo S256x4096 (extractStridedSlice S256x1 off v3 h) broadcasts_S256x1_S256x4096)) (ix2 r d)
      = Cert.Margin.hinge (v0 (ix2 r d)) (v3 (ix2 r k)) := by
  rw [maximumf_apply, subf_apply, addf_apply, anchorSpread_apply v3 k off hoff h r d]
  rfl

/-! ## The payloads -/

/-- The anchor block passes through a cast to its own shape unchanged. -/
theorem pay2_eq (x2 : FVec Ideal S256x8 .f32) : k0_pay2 x2 = x2 := by
  unfold k0_pay2
  exact shapeCast_self x2 _

/-- The accumulation over the first four anchors, at (r, d). -/
theorem pay3_apply (x0 : FVec Ideal S256x4096 .f32) (x2 : FVec Ideal S256x8 .f32) (r : Fin 256) (d : Fin 4096) :
    k0_pay3 x0 x2 (ix2 r d)
      = (((Ideal.ofBits .f32 0x00000000#32 + Cert.Margin.hinge (x0 (ix2 r d)) (x2 (ix2 r 0)))
          + Cert.Margin.hinge (x0 (ix2 r d)) (x2 (ix2 r 1))) + Cert.Margin.hinge (x0 (ix2 r d)) (x2 (ix2 r 2)))
          + Cert.Margin.hinge (x0 (ix2 r d)) (x2 (ix2 r 3)) := by
  unfold k0_pay3
  rw [pay2_eq, addf_apply, addf_apply, addf_apply, addf_apply,
    violation_apply x0 x2 0 ![0, 0] rfl, violation_apply x0 x2 1 ![0, 1] rfl, violation_apply x0 x2 2 ![0, 2] rfl,
    violation_apply x0 x2 3 ![0, 3] rfl]
  rfl

/-- The fifth anchor's difference before the maximum with zero, at (r, d). -/
theorem pay4_apply (x0 : FVec Ideal S256x4096 .f32) (x2 : FVec Ideal S256x8 .f32) (r : Fin 256) (d : Fin 4096) :
    k0_pay4 x0 x2 (ix2 r d) = (Ideal.ofBits .f32 0x3F000000#32 + x0 (ix2 r d)) - x2 (ix2 r 4) := by
  unfold k0_pay4
  rw [pay2_eq, subf_apply, addf_apply, anchorSpread_apply x2 4 ![0, 4] rfl]
  rfl

/-- The weighted entries the last payload sums: from the scores, the labels, the anchors, the accumulation so far, the
    fifth difference and the zero it is compared with. -/
def entries (v0 v1 : FVec Ideal S256x4096 .f32) (v3 : FVec Ideal S256x8 .f32) (v36 v41 : FVec Ideal S256x4096 .f32)
    (cst : Ideal .f32) : FVec Ideal S256x4096 .f32 :=
  mulf (subf (broadcast S256x4096 (Scalar.ofBits (F := Ideal) .f32 0x3F800000#32)) v1)
    (addf (addf (addf (addf v36 (maximumf (broadcast S256x4096 cst) v41))
      (maximumf (broadcast S256x4096 (Scalar.ofBits (F := Ideal) .f32 0x00000000#32))
        (subf (addf (broadcast S256x4096 (Scalar.ofBits (F := Ideal) .f32 0x3F000000#32)) v0)
          (broadcastTo S256x4096 (extractStridedSlice S256x1 ![0, 5] v3 slices_S256x8_o0_5_S256x1)
            broadcasts_S256x1_S256x4096))))
      (maximumf (broadcast S256x4096 (Scalar.ofBits (F := Ideal) .f32 0x00000000#32))
        (subf (addf (broadcast S256x4096 (Scalar.ofBits (F := Ideal) .f32 0x3F000000#32)) v0)
          (broadcastTo S256x4096 (extractStridedSlice S256x1 ![0, 6] v3 slices_S256x8_o0_6_S256x1)
            broadcasts_S256x1_S256x4096))))
      (maximumf (broadcast S256x4096 (Scalar.ofBits (F := Ideal) .f32 0x00000000#32))
        (subf (addf (broadcast S256x4096 (Scalar.ofBits (F := Ideal) .f32 0x3F000000#32)) v0)
          (broadcastTo S256x4096 (extractStridedSlice S256x1 ![0, 7] v3 slices_S256x8_o0_7_S256x1)
            broadcasts_S256x1_S256x4096))))

/-- The last payload is the tile of the sum of the row sums of those entries. -/
theorem pay1_eq (v0 v1 : FVec Ideal S256x4096 .f32) (v3 : FVec Ideal S256x8 .f32) (v36 v41 : FVec Ideal S256x4096 .f32)
    (cst : Ideal .f32) :
    k0_pay1 v0 v1 v3 v36 v41 cst
      = broadcastTo S1x8x128
          (shapeCast S1x1x1 (shapeCast S1x1x1 (shapeCast S1x1
            (multiReduction .add [0] S1
              (shapeCast S256x1
                (multiReduction .add [1] S256 (entries v0 v1 v3 v36 v41 cst) 0x00000000#32 reduces_S256x4096_S256
                  (.inl rfl) rfl)
                shapeCasts_S256_S256x1)
              0x00000000#32 reduces_S256x1_S1 (.inl rfl) rfl)
            shapeCasts_S1_S1x1) shapeCasts_S1x1_S1x1x1) shapeCasts_S1x1x1_S1x1x1) broadcasts_S1x1x1_S1x8x128 := rfl

/-- An entry at (r, d): the weight of the label times the accumulation continued over the last four anchors. -/
theorem entries_apply (v0 v1 : FVec Ideal S256x4096 .f32) (v3 : FVec Ideal S256x8 .f32)
    (v36 v41 : FVec Ideal S256x4096 .f32) (cst : Ideal .f32) (r : Fin 256) (d : Fin 4096) :
    entries v0 v1 v3 v36 v41 cst (ix2 r d)
      = Cert.Margin.weight (v1 (ix2 r d))
        * ((((v36 (ix2 r d) + max cst (v41 (ix2 r d))) + Cert.Margin.hinge (v0 (ix2 r d)) (v3 (ix2 r 5)))
            + Cert.Margin.hinge (v0 (ix2 r d)) (v3 (ix2 r 6))) + Cert.Margin.hinge (v0 (ix2 r d)) (v3 (ix2 r 7))) := by
  unfold entries Cert.Margin.weight
  rw [mulf_apply, subf_apply, addf_apply, addf_apply, addf_apply, addf_apply, maximumf_apply,
    violation_apply v0 v3 5 ![0, 5] rfl, violation_apply v0 v3 6 ![0, 6] rfl, violation_apply v0 v3 7 ![0, 7] rfl]
  rfl

/-- The last payload at any cell of the tile: the double sum of its entries. -/
theorem pay1_apply (v0 v1 : FVec Ideal S256x4096 .f32) (v3 : FVec Ideal S256x8 .f32)
    (v36 v41 : FVec Ideal S256x4096 .f32) (cst : Ideal .f32) (j : S1x8x128.Idx) :
    k0_pay1 v0 v1 v3 v36 v41 cst j = ∑ r : Fin 256, ∑ d : Fin 4096, entries v0 v1 v3 v36 v41 cst (ix2 r d) := by
  rw [pay1_eq, tile_apply, colSum_apply]
  refine Finset.sum_congr rfl fun r _ => ?_
  rw [Cert.ColumnLayout.shapeCast_a_a1_apply, rowSum_apply]

/-! ## The block's value -/

/-- WHAT THE BODY COMPUTES from a block of scores x0, of labels x1 and of anchors x2: in every cell of the tile, the
    sum over the block's rows and columns of the specification's accumulated and weighted entry. -/
theorem body_apply (x0 x1 : FVec Ideal S256x4096 .f32) (x2 : FVec Ideal S256x8 .f32) (j : S1x8x128.Idx) :
    k0_pay1 x0 x1 (k0_pay2 x2) (k0_pay3 x0 x2) (k0_pay4 x0 x2) (Scalar.ofBits (F := Ideal) .f32 0x00000000#32) j
      = ∑ r : Fin 256, ∑ d : Fin 4096,
          Cert.Margin.accTerm (x1 (ix2 r d)) (x0 (ix2 r d)) (fun k => x2 (ix2 r k)) := by
  rw [pay1_apply]
  refine Finset.sum_congr rfl fun r _ => Finset.sum_congr rfl fun d _ => ?_
  rw [entries_apply, pay2_eq, pay3_apply, pay4_apply]
  rfl

end Cert.KernelIdeal.Block

end
-- ==== Proof.KerBlocks.lean ====
/-
  From the row blocks to the whole output array.

  Grid point t stages rows 256 t to 256 t + 255 of the scores, of the labels and of the anchors, and writes back tile t
  of the 16 by 8 by 128 output.  By the body's value, that tile holds in every cell the total of row block t.  The
  sixteen tiles cover the output, so after the run the output array holds, at (t, a, b), the total of row block t of the
  arrays as the region finds them.
-/
import proofs.«170382_j59287728554367_1_alg».proof.Proof.Gen.KernelIdeal.Frame
import proofs.«170382_j59287728554367_1_alg».proof.Proof.KerPayload
import Idealize.ShloMosaic.Lib.Pipeline.Value

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The row block a grid point works on: the point's own number. -/
def blockOfPoint (t : Fin cfg0.N) : Fin 16 := ⟨t.val, by have h := t.isLt; have e : cfg0.N = 16 := N_0; omega⟩

/-- The printed index maps, decided over the sixteen points: every window's block index on its first axis is the
    point's number, and zero on the others. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The array the output ends holding, from the scores a0, the labels a1 and the anchors p as whole arrays: at
    (t, a, b) the total of row block t. -/
def tiles (a0 a1 : S4096x4096.Idx → EReal) (p : S4096x8.Idx → EReal) : S16x8x128.Idx → EReal :=
  fun i => Cert.Margin.blockSum (fun r d => a0 (ix2 r d)) (fun r d => a1 (ix2 r d)) (fun r k => p (ix2 r k))
    ⟨(i 0).val, (i 0).isLt⟩

/-! ## The staged blocks are rows of the arrays -/

/-- Entry (r, d) of the score block at point t is the score at row r of block t, column d. -/
theorem scores_blk (c : Dev nD) (t : Fin cfg0.N) (r : Fin 256) (d : Fin 4096) :
    iblk m c 0 t (ix2 r d) = V m c main_arg0 (ix2 (Cert.Margin.rowOf (blockOfPoint t) r) d) := by
  obtain ⟨e0, e1, -⟩ := idx_facts t
  show V m c main_arg0 (((cfg0.win 0).blk t).view.emb (ix2 r d)) = _
  refine congrArg (V m c main_arg0) (funext fun a => Fin.ext ?_)
  match a with
  | ⟨0, _⟩ => show win0_0.index t (0 : Fin 2) * 256 + 1 * r.val = t.val * 256 + r.val; omega
  | ⟨1, _⟩ => show win0_0.index t (1 : Fin 2) * 4096 + 1 * d.val = d.val; omega

/-- The same for the label block. -/
theorem labels_blk (c : Dev nD) (t : Fin cfg0.N) (r : Fin 256) (d : Fin 4096) :
    iblk m c 1 t (ix2 r d) = V m c main_arg1 (ix2 (Cert.Margin.rowOf (blockOfPoint t) r) d) := by
  obtain ⟨-, -, e0, e1, -⟩ := idx_facts t
  show V m c main_arg1 (((cfg0.win 1).blk t).view.emb (ix2 r d)) = _
  refine congrArg (V m c main_arg1) (funext fun a => Fin.ext ?_)
  match a with
  | ⟨0, _⟩ => show win0_1.index t (0 : Fin 2) * 256 + 1 * r.val = t.val * 256 + r.val; omega
  | ⟨1, _⟩ => show win0_1.index t (1 : Fin 2) * 4096 + 1 * d.val = d.val; omega

/-- Entry (r, k) of the anchor block at point t is anchor k of row r of block t. -/
theorem anchors_blk (c : Dev nD) (t : Fin cfg0.N) (r : Fin 256) (k : Fin 8) :
    iblk m c 2 t (ix2 r k) = V m c main_v0 (ix2 (Cert.Margin.rowOf (blockOfPoint t) r) k) := by
  obtain ⟨-, -, -, -, e0, e1, -⟩ := idx_facts t
  show V m c main_v0 (((cfg0.win 2).blk t).view.emb (ix2 r k)) = _
  refine congrArg (V m c main_v0) (funext fun a => Fin.ext ?_)
  match a with
  | ⟨0, _⟩ => show win0_2.index t (0 : Fin 2) * 256 + 1 * r.val = t.val * 256 + r.val; omega
  | ⟨1, _⟩ => show win0_2.index t (1 : Fin 2) * 8 + 1 * k.val = k.val; omega

/-! ## What a point writes back -/

/-- Read at a cell of tile t, the array of block totals gives the total of block t. -/
theorem tiles_at_emb (a0 a1 : S4096x4096.Idx → EReal) (p : S4096x8.Idx → EReal) (t : Fin cfg0.N) (j : S1x8x128.Idx) :
    tiles a0 a1 p (((cfg0.win 3).blk t).view.emb j)
      = Cert.Margin.blockSum (fun r d => a0 (ix2 r d)) (fun r d => a1 (ix2 r d)) (fun r k => p (ix2 r k))
          (blockOfPoint t) := by
  obtain ⟨-, -, -, -, -, -, e0, -⟩ := idx_facts t
  unfold tiles
  refine congrArg _ (Fin.ext ?_)
  have hj : (j 0).val < 1 := (j 0).isLt
  show win0_3.index t (0 : Fin 3) * 1 + 1 * (j 0).val = t.val
  omega

/-- WHAT POINT t WRITES BACK is tile t of the array of block totals of the arrays as the region finds them. -/
theorem flushed_eq (c : Dev nD) (t : Fin cfg0.N) :
    (dats m 0 c).flushed 3 t
      = ((cfg0.win 3).blk t).view.read (Elt Ideal) (tiles (V m c main_arg0) (V m c main_arg1) (V m c main_v0)) := by
  show (cfg0.win 3).cut (grid0.coords t) ((dats m 0 c).after 3 t) = _
  rw [after0_3]
  unfold out0_3
  rw [View.canon_unit_zero hz3]
  simp only [View.ld_unit_zero (S := S256x4096) hz2, View.ld_unit_zero (S := S256x8) hz2]
  funext j
  refine (Cert.KernelIdeal.Block.body_apply (iblk m c 0 t) (iblk m c 1 t) (iblk m c 2 t) j).trans ?_
  show _ = tiles (V m c main_arg0) (V m c main_arg1) (V m c main_v0) (((cfg0.win 3).blk t).view.emb j)
  rw [tiles_at_emb]
  unfold Cert.Margin.blockSum Cert.Margin.accEntry
  refine Finset.sum_congr rfl fun r _ => Finset.sum_congr rfl fun d _ => ?_
  rw [scores_blk, labels_blk]
  refine congrArg _ (funext fun k => ?_)
  exact anchors_blk m c t r k

/-! ## The tiles cover the output -/

/-- An index of the output is in tile t iff each coordinate is in the tile's range on its axis. -/
theorem mem_blk (t : Fin cfg0.N) (i : S16x8x128.Idx) :
    i ∈ ((cfg0.win 3).blk t).view.set ↔ ∀ a : Fin 3, win0_3.index t a * S1x8x128.size a ≤ (i a).val
      ∧ (i a).val < win0_3.index t a * S1x8x128.size a + S1x8x128.size a := by
  show i ∈ ((View.whole main_v1).slice (win0_3.rect t)).set ↔ _
  rw [View.set_slice_whole, Rect.mem_set_unit]
  exact Iff.rfl

/-- Every index (t, a, b) of the output lies in the tile of point t, which is written back. -/
theorem cover (i : S16x8x128.Idx) :
    ∃ t : Fin cfg0.N, (cfg0.win 3).flush t = true ∧ i ∈ ((cfg0.win 3).blk t).view.set := by
  have h0 : (i 0).val < 16 := (i 0).isLt
  have h1 : (i 1).val < 8 := (i 1).isLt
  have h2 : (i 2).val < 128 := (i 2).isLt
  have hN : cfg0.N = 16 := N_0
  obtain ⟨t, ht⟩ : ∃ t : Fin cfg0.N, t.val = (i 0).val := ⟨⟨(i 0).val, by omega⟩, rfl⟩
  obtain ⟨-, -, -, -, -, -, e0, e1, e2⟩ := idx_facts t
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 8 ≤ (i 1).val ∧ (i 1).val < win0_3.index t (1 : Fin 3) * 8 + 8
    omega
  | ⟨2, _⟩ =>
    show win0_3.index t (2 : Fin 3) * 128 ≤ (i 2).val ∧ (i 2).val < win0_3.index t (2 : Fin 3) * 128 + 128
    omega

/-- THE OUTPUT ARRAY after the run: the block totals of the arrays as the region finds them. -/
theorem final (c : Dev nD) :
    (dats m 0 c).arrAt 3 cfg0.N = tiles (V m c main_arg0) (V m c main_arg1) (V m c main_v0) :=
  (dats m 0 c).arrAt_eq_of_cover 3 _ (fun t _ => flushed_eq m c t) cover

end Cert.KernelIdeal.Blocks

end
-- ==== Proof.KerRun.lean ====
/-
  The kernel program's run, read back as one value.

  Before the region the host forms the anchor scores exactly as the reference does: a negative position index wrapped
  by the row length, the scores looked up, an out-of-range entry replaced by a fixed word.  The region leaves the array
  of block totals.  After it the host adds all 16 by 8 by 128 cells to zero, divides by 1024 and divides by the count.
  Since every block total sits in 1024 cells, this is the loss of the specification.
-/
import proofs.«170382_j59287728554367_1_alg».proof.Proof.Gen.KernelIdeal.Frame
import proofs.«170382_j59287728554367_1_alg».proof.Proof.KerBlocks
import proofs.«170382_j59287728554367_1_alg».proof.Proof.LibIndexSums
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.Loss

open Cert.KernelIdeal Cert.KernelIdeal.Gen Idealize.ShloMosaic.ValueIdx

section Stages
variable {F : FTy → Type} [FloatOps F]

/-- The position indices with a negative one wrapped around: ids + 4096 where ids < 0, ids elsewhere. -/
def wrapIdx (ids : (⟨S4096x8, .i32⟩ : BufTy).Contents (Elt F)) : (⟨S4096x8, .i32⟩ : BufTy).Contents (Elt F) :=
  select (cmpi .slt ids (broadcastInDim S4096x8 ![] bcast_S_S4096x8 (constantI S_ 32 0#32)))
    (addi ids (broadcastInDim S4096x8 ![] bcast_S_S4096x8 (constantI S_ 32 4096#32))) ids

/-- The same indices as the start indices of the lookup, one index vector of length one per (row, anchor). -/
def startIdx (ids : (⟨S4096x8, .i32⟩ : BufTy).Contents (Elt F)) : (⟨S4096x8x1, .i32⟩ : BufTy).Contents (Elt F) :=
  shapeCast _ (wrapIdx (F := F) ids) shapeCasts_S4096x8_S4096x8x1

/-- Whether a wrapped index lies inside its row: 0 ≤ index ≤ 4095. -/
def inRange (ids : (⟨S4096x8, .i32⟩ : BufTy).Contents (Elt F)) : (⟨S4096x8, .i1⟩ : BufTy).Contents (Elt F) :=
  Host.reduce IntOp.andi
    (andi (cmpi .sge (startIdx (F := F) ids) (broadcastInDim S4096x8x1 ![] bcast_S_S4096x8x1 (constantI S_ 32 0#32)))
      (cmpi .sle (startIdx (F := F) ids) (broadcastInDim S4096x8x1 ![0, 1, 2] bcast_S1x1x1_S4096x8x1_0_1_2
        (broadcastInDim S1x1x1 ![2] bcast_S1_S1x1x1_2 (constantI S1 32 4095#32)))))
    (constantI S_ 1 1#1) reducesTo_S4096x8x1_S4096x8_d2 h_S_

/-- The anchor scores: the score looked up at each wrapped index where it is in range, a fixed word elsewhere. -/
def anchors (x : (⟨S4096x4096, .f32⟩ : BufTy).Contents (Elt F)) (ids : (⟨S4096x8, .i32⟩ : BufTy).Contents (Elt F)) :
    (⟨S4096x8, .f32⟩ : BufTy).Contents (Elt F) :=
  select (inRange (F := F) ids)
    (Host.gather gather_S4096x4096_S4096x8x1_S4096x8_n_1_0_0_1_2_11 x (startIdx (F := F) ids))
    (broadcastInDim S4096x8 ![] bcast_S_S4096x8 (constant S_ .f32 0x7FC00000#32))

/-- The host's last steps on the region's output: all cells added to zero, divided by 1024, divided by the count. -/
def tailOf (a : (⟨S16x8x128, .f32⟩ : BufTy).Contents (Elt F)) : (⟨S_, .f32⟩ : BufTy).Contents (Elt F) :=
  Host.divf
    (Host.divf (Host.reduceAdd a (constant S_ .f32 0x00000000#32) reducesTo_S16x8x128_S_d0_1_2 h_S_)
      (constant S_ .f32 0x44800000#32))
    (constant S_ .f32 0x4CFF8000#32)

end Stages

variable (m : (ℓ : Loc nD τ sig) → Buf (Elt Ideal) ℓ) (ρ : Dev nD → PrngReg)

set_option maxRecDepth 200000 in
set_option maxHeartbeats 2000000 in
/-- The anchor array as the region finds it is the anchors of the score and position arguments as launched. -/
theorem head (c : Dev nD) :
    V m c main_v0 = anchors (F := Ideal) (m ((c.tc : Thread nD τ).loc main_arg0)) (m ((c.tc : Thread nD τ).loc main_arg2)) := by
  show StableHlo.after hostOps0 (fun b => m (c, b)) (Proc.devRef .tc main_v0) = _
  after_results_simp <;> rfl

set_option maxRecDepth 65536 in
/-- The result buffer after the host's last steps is those steps applied to the region's output array. -/
theorem tail (c : Dev nD) :
    Pipeline.afterTail₀ cfgs (dats m) 0 (V0 m) [hostOps1] c main_v4 = tailOf (F := Ideal) ((dats m 0 c).arrAt 3 cfg0.N) := by
  unfold Pipeline.afterTail₀
  show StableHlo.after hostOps1 _ (Proc.devRef .tc main_v4) = _
  after_results
  exact congrArg (tailOf (F := Ideal)) (Pipeline.withArrays_arr spec0 launch0.win.arr_inj c _ _ 3)

/-! ## The run -/

/-- From any memory with zero counters, every weakly fair execution of the kernel program terminates with the result
    buffer at the host's last steps applied to the block totals of the arguments (the anchors looked up from the scores
    and the positions), and the arguments unchanged. -/
theorem run : θ_run defs (onTc (τ := τ) (main (F := Ideal))) ⟨m, fun _ => 0, ρ⟩ fun r => ∀ c : Dev nD,
      r.2.mem ((c.tc : Thread nD τ).loc main_v4)
          = tailOf (F := Ideal) (Blocks.tiles (m ((c.tc : Thread nD τ).loc main_arg0)) (m ((c.tc : Thread nD τ).loc main_arg1))
              (anchors (F := Ideal) (m ((c.tc : Thread nD τ).loc main_arg0)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v4 (Pipeline.mem_restRefs_of main_v4 (by decide) (by decide))).trans
        ((tail m c).trans (by rw [Blocks.final, V_main_arg0, V_main_arg1, head])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans
        (W_main_arg2 m (dats m) c)⟩)
    (run_main m ρ)

/-! ## The result is the loss -/

/-- The host's last steps on the array of block totals give, at the result's one index, the loss of the
    specification: the cells are summed coordinate by coordinate, each block total 1024 times. -/
theorem tailOf_tiles (a0 a1 : FVec Ideal S4096x4096 .f32) (p : FVec Ideal S4096x8 .f32) (j : S_.Idx) :
    tailOf (F := Ideal) (Blocks.tiles a0 a1 p) j
      = Cert.Margin.loss (fun i d => a0 (ix2 i d)) (fun i d => a1 (ix2 i d)) (fun i k => p (ix2 i k)) := by
  unfold tailOf
  show Ideal.div (Ideal.div (Host.reduceAdd (Blocks.tiles a0 a1 p) (constant (F := Ideal) S_ .f32 0x00000000#32)
      reducesTo_S16x8x128_S_d0_1_2 h_S_ j) (constant (F := Ideal) S_ .f32 0x44800000#32 j))
    (constant (F := Ideal) S_ .f32 0x4CFF8000#32 j) = _
  simp only [Host.reduceAdd, Ideal.hostReduceAdd_def]
  rw [Ideal.hostReduceAdd_total reducesTo_S16x8x128_S_d0_1_2 (fun b => b.elim0), Cert.IndexSums.sum_idx3]
  exact Cert.Margin.tiles_div_div _ _ _

end Cert.KernelIdeal.Loss

end
-- ==== Proof.lean ====
/-
  A margin loss computed by a tiled kernel equals the reference's, over the extended reals.

  With scores x, labels y and position indices ids, let p be the anchor scores: p i k is the score of row i at the
  position ids i k (a negative index wrapped by the row length, an index still out of range replaced by one fixed
  word).  One term of the loss is (1 - y i d) * max 0 ((1/2 + x i d) - p i k), and the loss is the sum of these terms over
  all rows i, anchors k and columns d, divided by a constant.

  The reference computes exactly this sum.  The kernel program forms the same anchors on the host, then for each of
  sixteen blocks of 256 rows accumulates, entry by entry, the eight violations before weighting them, sums the block,
  writes the block total into all 1024 cells of a tile, and the host adds all cells, divides by 1024 and by the same
  constant.  The two agree for every input: each violation is a maximum with zero, hence never negative, and a factor
  distributes over a sum of nonnegative extended reals whether or not anything is finite; finite sums reorder freely;
  and (1024 * s) * (1/1024) = s for every extended real s.  Nothing here needs the inputs to be finite.

  The kernel programs' frames are their generated runs; the reference's frame is its run with the result dropped; the
  kernel's idealization rewrote nothing, so there is nothing to preserve.
-/
import proofs.«170382_j59287728554367_1_alg».proof.Defs
import proofs.«170382_j59287728554367_1_alg».proof.Proof.Gen.Kernel
import proofs.«170382_j59287728554367_1_alg».proof.Proof.Gen.Kernel.Skeleton
import proofs.«170382_j59287728554367_1_alg».proof.Proof.Gen.Kernel.Launch
import proofs.«170382_j59287728554367_1_alg».proof.Proof.Gen.Kernel.Points
import proofs.«170382_j59287728554367_1_alg».proof.Proof.Gen.Kernel.Frame
import proofs.«170382_j59287728554367_1_alg».proof.Proof.Gen.KernelIdeal
import proofs.«170382_j59287728554367_1_alg».proof.Proof.Gen.KernelIdeal.Skeleton
import proofs.«170382_j59287728554367_1_alg».proof.Proof.Gen.KernelIdeal.Launch
import proofs.«170382_j59287728554367_1_alg».proof.Proof.Gen.KernelIdeal.Points
import proofs.«170382_j59287728554367_1_alg».proof.Proof.Gen.KernelIdeal.Frame
import proofs.«170382_j59287728554367_1_alg».proof.Proof.Gen.ReferenceIdeal
import proofs.«170382_j59287728554367_1_alg».proof.Proof.Gen.Pre_finite_inputs
import proofs.«170382_j59287728554367_1_alg».proof.Proof.MarginSpec
import proofs.«170382_j59287728554367_1_alg».proof.Proof.RefRun
import proofs.«170382_j59287728554367_1_alg».proof.Proof.RefRead
import proofs.«170382_j59287728554367_1_alg».proof.Proof.KerRun
import Idealize.ShloMosaic.Adequacy
import Idealize.ShloMosaic.Init

noncomputable section

namespace Cert.Proof

open Idealize.ShloMosaic Idealize.SL.Sem Idealize.ShloMosaic.ValueIdx

/-! ## The frames -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Loss.run (F := Ideal) m ρ)

/-! ## The results agree -/

set_option maxRecDepth 65536 in
/-- Both programs form the anchors by the same operations on the same arrays. -/
theorem anchors_same (x : FVec Ideal Cert.KernelIdeal.S4096x4096 .f32)
    (ids : (⟨Cert.KernelIdeal.S4096x8, .i32⟩ : BufTy).Contents (Elt Ideal)) :
    Cert.ReferenceIdeal.Loss.anchors (F := Ideal) x ids = Cert.KernelIdeal.Loss.anchors (F := Ideal) x ids := rfl

/-- From memories agreeing on the arguments both programs end with the loss of those arguments in their result
    buffers: the kernel's by its run and the host's last steps read on the block totals, the reference's by its run
    read index by index. -/
theorem algebraic : Cert.algebraic_KernelIdeal_ReferenceIdeal := by
  intro m ρ m' ρ' _ hagree
  refine ⟨fun c => fun _ => Cert.Margin.loss
      (fun i d => m ((c.tc : Thread Cert.KernelIdeal.nD Cert.KernelIdeal.τ).loc Cert.KernelIdeal.main_arg0) (ix2 i d))
      (fun i d => m ((c.tc : Thread Cert.KernelIdeal.nD Cert.KernelIdeal.τ).loc Cert.KernelIdeal.main_arg1) (ix2 i d))
      (fun i k => Cert.KernelIdeal.Loss.anchors (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2)) (ix2 i k)), ?_, ?_⟩
  · refine (θ_run Cert.KernelIdeal.defs _ _).mono (fun r h c => ⟨(h c).1.trans ?_, (h c).2⟩)
      (Cert.KernelIdeal.Loss.run m ρ)
    funext j
    exact Cert.KernelIdeal.Loss.tailOf_tiles _ _ _ j
  · refine (θ_run Cert.ReferenceIdeal.defs _ _).mono (fun r h c => ⟨(h c).1.trans ?_, (h c).2⟩)
      (Cert.ReferenceIdeal.Loss.run (F := Ideal) m' ρ')
    rw [(hagree c).1, (hagree c).2.1, (hagree c).2.2]
    funext j
    refine (Cert.ReferenceIdeal.Loss.refLoss_apply _ _ _ j).trans ?_
    rw [Cert.Margin.zero_add_lossSum_div, anchors_same]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
